-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512x512 .f32) (main_arg6 : FVec F S512 .f32) (main_arg7 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  main_v33

def fn {F : FTy → Type} [FloatOps F] (main_arg0 : FVec F S50000x512 .f32) (main_arg1 : IVec S2x400000 32) (main_arg2 : FVec F S512x512 .f32) (main_arg3 : FVec F S512 .f32) (main_arg4 : FVec F S512x512 .f32) (main_arg5 : FVec F S512x512 .f32) (main_arg6 : FVec F S512 .f32) (main_arg7 : FVec F S512x512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_v13 main_v16
-- ==== Kernel.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x512 : Shape := ⟨2, ![400000, 512]⟩
abbrev S50000 : Shape := ⟨1, ![50000]⟩
abbrev S50000x1 : Shape := ⟨2, ![50000, 1]⟩
abbrev S1000x512 : Shape := ⟨2, ![1000, 512]⟩
abbrev S1x512 : Shape := ⟨2, ![1, 512]⟩

abbrev nBuf : Space → Nat
  | .hbm => 64
  | .vmem => 18
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x512, .f32⟩
  | .hbm, ⟨21, _⟩ => ⟨S_, .f32⟩
  | .hbm, ⟨22, _⟩ => ⟨S50000x512, .f32⟩
  | .hbm, ⟨23, _⟩ => ⟨S400000x1, .i32⟩
  | .hbm, ⟨24, _⟩ => ⟨S50000x512, .f32⟩
  | .hbm, ⟨25, _⟩ => ⟨S_, .f32⟩
  | .hbm, ⟨26, _⟩ => ⟨S400000, .f32⟩
  | .hbm, ⟨27, _⟩ => ⟨S_, .f32⟩
  | .hbm, ⟨28, _⟩ => ⟨S50000, .f32⟩
  | .hbm, ⟨29, _⟩ => ⟨S400000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x512, .f32⟩
  | .hbm, ⟨36, _⟩ => ⟨S50000x512, .f32⟩
  | .hbm, ⟨37, _⟩ => ⟨S50000x512, .f32⟩
  | .hbm, ⟨38, _⟩ => ⟨S_, .i32⟩
  | .hbm, ⟨39, _⟩ => ⟨S400000, .i32⟩
  | .hbm, ⟨40, _⟩ => ⟨S400000, .i1⟩
  | .hbm, ⟨41, _⟩ => ⟨S_, .i32⟩
  | .hbm, ⟨42, _⟩ => ⟨S400000, .i32⟩
  | .hbm, ⟨43, _⟩ => ⟨S400000, .i32⟩
  | .hbm, ⟨44, _⟩ => ⟨S400000, .i32⟩
  | .hbm, ⟨45, _⟩ => ⟨S400000x1, .i32⟩
  | .hbm, ⟨46, _⟩ => ⟨S400000x512, .f32⟩
  | .hbm, ⟨47, _⟩ => ⟨S_, .f32⟩
  | .hbm, ⟨48, _⟩ => ⟨S50000x512, .f32⟩
  | .hbm, ⟨49, _⟩ => ⟨S400000x1, .i32⟩
  | .hbm, ⟨50, _⟩ => ⟨S50000x512, .f32⟩
  | .hbm, ⟨51, _⟩ => ⟨S_, .f32⟩
  | .hbm, ⟨52, _⟩ => ⟨S400000, .f32⟩
  | .hbm, ⟨53, _⟩ => ⟨S_, .f32⟩
  | .hbm, ⟨54, _⟩ => ⟨S50000, .f32⟩
  | .hbm, ⟨55, _⟩ => ⟨S400000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x512, .f32⟩
  | .hbm, ⟨62, _⟩ => ⟨S50000x512, .f32⟩
  | .hbm, ⟨63, _⟩ => ⟨S50000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S512x512, .f32⟩
  | .local _ .vmem, ⟨6, _⟩ => ⟨S512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S512x512, .f32⟩
  | .local _ .vmem, ⟨14, _⟩ => ⟨S512x512, .f32⟩
  | .local _ .vmem, ⟨15, _⟩ => ⟨S512, .f32⟩
  | .local _ .vmem, ⟨16, _⟩ => ⟨S1000x512, .f32⟩
  | .local _ .vmem, ⟨17, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  scatter_S50000_S400000x1_S400000_n_0_0_1_wf : ScatterDims.WF S50000 S400000x1 S400000 [] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .f32 = 32 ∨ (Rect.block (s := S50000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S50000x512.size a
  hwx0_5 : ∀ i : grid0.Coords, EltTy.bits .f32 = 32 ∨ (Rect.block (s := S50000x512) S1000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S50000x512.size a
  hwx1_1 : ∀ i : grid1.Coords, EltTy.bits .f32 = 32 ∨ (Rect.block (s := S50000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S50000x512.size a
  hwx1_5 : ∀ i : grid1.Coords, EltTy.bits .f32 = 32 ∨ (Rect.block (s := S50000x512) S1000x512.size (cc1_transform_5 i) (hinb1_5 i)).WholeWords (EltTy.packing .f32)

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v22) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x512 : Shape := ⟨2, ![400000, 512]⟩
abbrev S50000 : Shape := ⟨1, ![50000]⟩
abbrev S50000x1 : Shape := ⟨2, ![50000, 1]⟩
abbrev S1x512 : Shape := ⟨2, ![1, 512]⟩

abbrev nBuf : Space → Nat
  | .hbm => 77
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x512, .f32⟩
  | .hbm, ⟨21, _⟩ => ⟨S_, .f32⟩
  | .hbm, ⟨22, _⟩ => ⟨S50000x512, .f32⟩
  | .hbm, ⟨23, _⟩ => ⟨S400000x1, .i32⟩
  | .hbm, ⟨24, _⟩ => ⟨S50000x512, .f32⟩
  | .hbm, ⟨25, _⟩ => ⟨S_, .f32⟩
  | .hbm, ⟨26, _⟩ => ⟨S400000, .f32⟩
  | .hbm, ⟨27, _⟩ => ⟨S_, .f32⟩
  | .hbm, ⟨28, _⟩ => ⟨S50000, .f32⟩
  | .hbm, ⟨29, _⟩ => ⟨S400000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x512, .f32⟩
  | .hbm, ⟨36, _⟩ => ⟨S50000x512, .f32⟩
  | .hbm, ⟨37, _⟩ => ⟨S50000x512, .f32⟩
  | .hbm, ⟨38, _⟩ => ⟨S1x512, .f32⟩
  | .hbm, ⟨39, _⟩ => ⟨S50000x512, .f32⟩
  | .hbm, ⟨40, _⟩ => ⟨S50000x512, .f32⟩
  | .hbm, ⟨41, _⟩ => ⟨S50000x512, .f32⟩
  | .hbm, ⟨42, _⟩ => ⟨S50000x512, .f32⟩
  | .hbm, ⟨43, _⟩ => ⟨S_, .f32⟩
  | .hbm, ⟨44, _⟩ => ⟨S50000x512, .f32⟩
  | .hbm, ⟨45, _⟩ => ⟨S50000x512, .f32⟩
  | .hbm, ⟨46, _⟩ => ⟨S_, .i32⟩
  | .hbm, ⟨47, _⟩ => ⟨S400000, .i32⟩
  | .hbm, ⟨48, _⟩ => ⟨S400000, .i1⟩
  | .hbm, ⟨49, _⟩ => ⟨S_, .i32⟩
  | .hbm, ⟨50, _⟩ => ⟨S400000, .i32⟩
  | .hbm, ⟨51, _⟩ => ⟨S400000, .i32⟩
  | .hbm, ⟨52, _⟩ => ⟨S400000, .i32⟩
  | .hbm, ⟨53, _⟩ => ⟨S400000x1, .i32⟩
  | .hbm, ⟨54, _⟩ => ⟨S400000x512, .f32⟩
  | .hbm, ⟨55, _⟩ => ⟨S_, .f32⟩
  | .hbm, ⟨56, _⟩ => ⟨S50000x512, .f32⟩
  | .hbm, ⟨57, _⟩ => ⟨S400000x1, .i32⟩
  | .hbm, ⟨58, _⟩ => ⟨S50000x512, .f32⟩
  | .hbm, ⟨59, _⟩ => ⟨S_, .f32⟩
  | .hbm, ⟨60, _⟩ => ⟨S400000, .f32⟩
  | .hbm, ⟨61, _⟩ => ⟨S_, .f32⟩
  | .hbm, ⟨62, _⟩ => ⟨S50000, .f32⟩
  | .hbm, ⟨63, _⟩ => ⟨S400000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x512, .f32⟩
  | .hbm, ⟨70, _⟩ => ⟨S50000x512, .f32⟩
  | .hbm, ⟨71, _⟩ => ⟨S50000x512, .f32⟩
  | .hbm, ⟨72, _⟩ => ⟨S1x512, .f32⟩
  | .hbm, ⟨73, _⟩ => ⟨S50000x512, .f32⟩
  | .hbm, ⟨74, _⟩ => ⟨S50000x512, .f32⟩
  | .hbm, ⟨75, _⟩ => ⟨S50000x512, .f32⟩
  | .hbm, ⟨76, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  scatter_S50000_S400000x1_S400000_n_0_0_1_wf : ScatterDims.WF S50000 S400000x1 S400000 [] [0] [0] 1
  dot_S50000x512_S512x512_S50000x512_1_0_0_1_n_n_wf : DotDims.WF S50000x512 S512x512 S50000x512 [1] [0] [0] [1] [] []

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.BoundaryRun.lean ====
/-
  The idealized kernel program's run with the result kept: every weakly fair execution of its @main — a stretch of
  host operations, the first layer's pallas_call, a second stretch, the second layer's pallas_call — terminates, and
  in the final state the result buffer holds what the last boundary's contents give it, while the eight arguments
  hold what they were launched with. The contents at the boundaries are a fold from the launch memory: a host
  stretch applies its operations; a pallas_call leaves each of its arrays at what its write-backs, in point order,
  make of it and every other buffer as it was.
-/
import proofs.«113074_j89249420410962_1_alg».proof.Proof.Gen.KernelIdeal.Frame

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_boundary : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Sage

end
-- ==== Proof.SegmentMean.lean ====
/-
  The neighbour mean both programs compute on the host before each linear layer, as ONE function of the node
  features and the edge list. Row 0 of the edge list holds each edge's source node, row 1 its target node. For every
  node r the function sums the feature rows feat[src e] over the edges e with dst e = r (a gather followed by a
  scatter-add into zeros), counts those edges (a scatter-add of ones into zeros), and divides the sum by
  max(count, 1). A negative source index is first wrapped once by the node count. Nothing below ever opens this
  function: both programs apply it to equal arguments.
-/
import proofs.«113074_j89249420410962_1_alg».proof.Proof.Gen.KernelIdeal

noncomputable section

namespace Cert.KernelIdeal.Sage

open Cert.KernelIdeal Cert.KernelIdeal.Gen Idealize.ShloMosaic

variable {F : FTy → Type} [FloatOps F]

/-- Row 0 of the edge list: the source node of every edge. -/
def srcOf (ei : (⟨S2x400000, .i32⟩ : BufTy).Contents (Elt F)) : (⟨S400000, .i32⟩ : BufTy).Contents (Elt F) :=
  shapeCast S400000 (extractStridedSlice S1x400000 ![0, 0] ei slices_S2x400000_S1x400000_0_0) shapeCasts_S1x400000_S400000

/-- Row 1 of the edge list: the target node of every edge. -/
def dstOf (ei : (⟨S2x400000, .i32⟩ : BufTy).Contents (Elt F)) : (⟨S400000, .i32⟩ : BufTy).Contents (Elt F) :=
  shapeCast S400000 (extractStridedSlice S1x400000 ![1, 0] ei slices_S2x400000_S1x400000_1_0) shapeCasts_S1x400000_S400000

/-- The mean over the incoming edges: for node r, (∑ over edges e with dst e = r of feat[src e]) / max(#such edges, 1). -/
def meanOf (feat : (⟨S50000x512, .f32⟩ : BufTy).Contents (Elt F)) (src dst : (⟨S400000, .i32⟩ : BufTy).Contents (Elt F)) :
    (⟨S50000x512, .f32⟩ : BufTy).Contents (Elt F) :=
  Host.divf (F := F)
    (Host.scatterAdd (F := F) scatter_S50000x512_S400000x1_S400000x512_1_0_0_1
      (broadcastInDim S50000x512 ![] bcast_S_S50000x512 (constant (F := F) S_ .f32 0x00000000#32))
      (broadcastInDim S400000x1 ![0] bcast_S400000_S400000x1_0 dst)
      (Host.gather gather_S50000x512_S400000x1_S400000x512_1_0_n_n_0_1_1512 feat
        (broadcastInDim S400000x1 ![0] bcast_S400000_S400000x1_0
          (select (cmpi .slt src (broadcastInDim S400000 ![] bcast_S_S400000 (constantI S_ 32 0#32)))
            (addi src (broadcastInDim S400000 ![] bcast_S_S400000 (constantI S_ 32 50000#32)))
            src))))
    (broadcastInDim S50000x512 ![0, 1] bcast_S50000x1_S50000x512_0_1
      (broadcastInDim S50000x1 ![0] bcast_S50000_S50000x1_0
        (maximumf (F := F)
          (Host.scatterAdd (F := F) scatter_S50000_S400000x1_S400000_n_0_0_1
            (broadcastInDim S50000 ![] bcast_S_S50000 (constant (F := F) S_ .f32 0x00000000#32))
            (broadcastInDim S400000x1 ![0] bcast_S400000_S400000x1_0 dst)
            (broadcastInDim S400000 ![] bcast_S_S400000 (constant (F := F) S_ .f32 0x3F800000#32)))
          (broadcastInDim S50000 ![] bcast_S_S50000 (constant (F := F) S_ .f32 0x3F800000#32)))))

/-- The neighbour mean of the features along the edge list. -/
def segMean (feat : (⟨S50000x512, .f32⟩ : BufTy).Contents (Elt F)) (ei : (⟨S2x400000, .i32⟩ : BufTy).Contents (Elt F)) :
    (⟨S50000x512, .f32⟩ : BufTy).Contents (Elt F) :=
  meanOf feat (srcOf ei) (dstOf ei)

end Cert.KernelIdeal.Sage

end
-- ==== Proof.HostStages.lean ====
/-
  What the two pallas_calls find in their arrays when they are entered, for the kernel program's run.

  Before the first call the host computes the neighbour mean of the input features; the weights, biases and the
  features themselves are still the launch contents. Between the calls the host computes the neighbour mean of
  the first call's output array — with the same source and target rows of the edge list, read once before the
  first call and untouched by it — while the first call's output itself and the second layer's weights and bias
  are what the first call left, respectively the launch contents.
-/
import proofs.«113074_j89249420410962_1_alg».proof.Proof.Gen.KernelIdeal.Frame
import proofs.«113074_j89249420410962_1_alg».proof.Proof.SegmentMean
import Idealize.ShloMosaic.Lib.StableHlo.Run

set_option maxRecDepth 16384

noncomputable section

namespace Cert.KernelIdeal.Sage

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the first call's entry -/

set_option maxHeartbeats 4000000 in
/-- The aggregated-features array is the neighbour mean of the input features along the edge list. -/
theorem entry1_mean (c : Dev nD) :
    V1 m ρ c main_v22 = segMean (F := F) (m ((c.tc : Thread nD τ).loc main_arg0)) (m ((c.tc : Thread nD τ).loc main_arg1)) := by
  show StableHlo.after hostOps0 (W0 m ρ c) (Proc.devRef .tc main_v22) = _
  after_results_simp <;> rfl

theorem entry1_x (c : Dev nD) : V1 m ρ c main_arg0 = m ((c.tc : Thread nD τ).loc main_arg0) := by
  show StableHlo.after hostOps0 (W0 m ρ c) (Proc.devRef .tc main_arg0) = _
  after_results_simp <;> rfl
theorem entry1_wl (c : Dev nD) : V1 m ρ c main_arg2 = m ((c.tc : Thread nD τ).loc main_arg2) := by
  show StableHlo.after hostOps0 (W0 m ρ c) (Proc.devRef .tc main_arg2) = _
  after_results_simp <;> rfl
theorem entry1_b (c : Dev nD) : V1 m ρ c main_arg3 = m ((c.tc : Thread nD τ).loc main_arg3) := by
  show StableHlo.after hostOps0 (W0 m ρ c) (Proc.devRef .tc main_arg3) = _
  after_results_simp <;> rfl
theorem entry1_wr (c : Dev nD) : V1 m ρ c main_arg4 = m ((c.tc : Thread nD τ).loc main_arg4) := by
  show StableHlo.after hostOps0 (W0 m ρ c) (Proc.devRef .tc main_arg4) = _
  after_results_simp <;> rfl

/-! ## Across the first call: what it does not write stays -/

/-- The edge list's source row, read before the first call, is still there after it. -/
theorem exit1_src (c : Dev nD) : W2 m ρ c (Proc.devRef .tc main_v1) = srcOf (F := F) (m ((c.tc : Thread nD τ).loc main_arg1)) :=
  (W2_of_ne m ρ c main_v1 (by decide)).trans (by
    show StableHlo.after hostOps0 (W0 m ρ c) (Proc.devRef .tc main_v1) = _
    after_results_simp <;> rfl)
/-- The edge list's target row, read before the first call, is still there after it. -/
theorem exit1_dst (c : Dev nD) : W2 m ρ c (Proc.devRef .tc main_v3) = dstOf (F := F) (m ((c.tc : Thread nD τ).loc main_arg1)) :=
  (W2_of_ne m ρ c main_v3 (by decide)).trans (by
    show StableHlo.after hostOps0 (W0 m ρ c) (Proc.devRef .tc main_v3) = _
    after_results_simp <;> rfl)
theorem exit1_wl (c : Dev nD) : W2 m ρ c (Proc.devRef .tc main_arg5) = m ((c.tc : Thread nD τ).loc main_arg5) :=
  (W2_of_ne m ρ c main_arg5 (by decide)).trans (by
    show StableHlo.after hostOps0 (W0 m ρ c) (Proc.devRef .tc main_arg5) = _
    after_results_simp <;> rfl)
theorem exit1_b (c : Dev nD) : W2 m ρ c (Proc.devRef .tc main_arg6) = m ((c.tc : Thread nD τ).loc main_arg6) :=
  (W2_of_ne m ρ c main_arg6 (by decide)).trans (by
    show StableHlo.after hostOps0 (W0 m ρ c) (Proc.devRef .tc main_arg6) = _
    after_results_simp <;> rfl)
theorem exit1_wr (c : Dev nD) : W2 m ρ c (Proc.devRef .tc main_arg7) = m ((c.tc : Thread nD τ).loc main_arg7) :=
  (W2_of_ne m ρ c main_arg7 (by decide)).trans (by
    show StableHlo.after hostOps0 (W0 m ρ c) (Proc.devRef .tc main_arg7) = _
    after_results_simp <;> rfl)
/-- The first call's output array holds what its write-backs made of it. -/
theorem exit1_out (c : Dev nD) : W2 m ρ c (Proc.devRef .tc main_v23) = (dat0 (V1 m ρ) c).arrAt 5 cfg0.N :=
  W2_arr m ρ c 5

/-! ## At the second call's entry -/

set_option maxHeartbeats 4000000 in
/-- The aggregated-features array is the neighbour mean of the first call's output, along the same edges. -/
theorem entry2_mean (c : Dev nD) :
    V3 m ρ c main_v42 = meanOf (F := F) (W2 m ρ c (Proc.devRef .tc main_v23)) (W2 m ρ c (Proc.devRef .tc main_v1)) (W2 m ρ c (Proc.devRef .tc main_v3)) := by
  show StableHlo.after hostOps1 (W2 m ρ c) (Proc.devRef .tc main_v42) = _
  after_results_simp <;> rfl
theorem entry2_h (c : Dev nD) : V3 m ρ c main_v23 = W2 m ρ c (Proc.devRef .tc main_v23) := by
  show StableHlo.after hostOps1 (W2 m ρ c) (Proc.devRef .tc main_v23) = _
  after_results_simp <;> rfl
theorem entry2_wl (c : Dev nD) : V3 m ρ c main_arg5 = W2 m ρ c (Proc.devRef .tc main_arg5) := by
  show StableHlo.after hostOps1 (W2 m ρ c) (Proc.devRef .tc main_arg5) = _
  after_results_simp <;> rfl
theorem entry2_b (c : Dev nD) : V3 m ρ c main_arg6 = W2 m ρ c (Proc.devRef .tc main_arg6) := by
  show StableHlo.after hostOps1 (W2 m ρ c) (Proc.devRef .tc main_arg6) = _
  after_results_simp <;> rfl
theorem entry2_wr (c : Dev nD) : V3 m ρ c main_arg7 = W2 m ρ c (Proc.devRef .tc main_arg7) := by
  show StableHlo.after hostOps1 (W2 m ρ c) (Proc.devRef .tc main_arg7) = _
  after_results_simp <;> rfl

end Cert.KernelIdeal.Sage

end
-- ==== Proof.BlockLayer.lean ====
/-
  What each kernel body stores, read at one entry of its [1000, 512] block, over the extended reals.

  Both bodies load a block of aggregated features a, a block of own features x (1000 rows each), the two whole
  [512, 512] weight matrices Wl, Wr and the whole bias row b, and store at (p, q)

      (∑ₖ a[p,k]·Wl[k,q] + ∑ₖ x[p,k]·Wr[k,q]) + b[q]

  — the first body followed by max(·, 0). The changes of float format before the products are the identity on
  extended reals, each product is accumulated into zeros, and the bias row is the [512] vector read as one row and
  repeated down the block.
-/
import proofs.«113074_j89249420410962_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Sage

open Cert.KernelIdeal Cert.KernelIdeal.Gen Idealize.ShloMosaic Idealize.ShloMosaic.ValueIdx

/-- The product's left operand is read at the output's row … -/
theorem dot_lhs0 (i : S1000x512.Idx) (c : dot_S1000x512_S512x512_S1000x512_1_0_0_1_n_n.contr.Idx) : (dot_S1000x512_S512x512_S1000x512_1_0_0_1_n_n.lhsIdx i c 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
/-- … and the contraction position; -/
theorem dot_lhs1 (i : S1000x512.Idx) (c : dot_S1000x512_S512x512_S1000x512_1_0_0_1_n_n.contr.Idx) : (dot_S1000x512_S512x512_S1000x512_1_0_0_1_n_n.lhsIdx i c 1).val = (c ⟨0, by decide⟩).val :=
  dot_S1000x512_S512x512_S1000x512_1_0_0_1_n_n.lhsIdx_val_of_single rfl i c
/-- the right operand at the contraction position … -/
theorem dot_rhs0 (i : S1000x512.Idx) (c : dot_S1000x512_S512x512_S1000x512_1_0_0_1_n_n.contr.Idx) : (dot_S1000x512_S512x512_S1000x512_1_0_0_1_n_n.rhsIdx i c 0).val = (c ⟨0, by decide⟩).val :=
  dot_S1000x512_S512x512_S1000x512_1_0_0_1_n_n.rhsIdx_val_of_single rfl i c
/-- … and the output's column. -/
theorem dot_rhs1 (i : S1000x512.Idx) (c : dot_S1000x512_S512x512_S1000x512_1_0_0_1_n_n.contr.Idx) : (dot_S1000x512_S512x512_S1000x512_1_0_0_1_n_n.rhsIdx i c 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- A [1000, 512] × [512, 512] product accumulated into zeros, at (p, q): ∑ₖ l[p,k]·r[k,q]. -/
theorem block_dot_apply {φ₁ φ₂ : FTy} (l : FVec Ideal S1000x512 φ₁) (r : FVec Ideal S512x512 φ₂) (p : Fin 1000) (q : Fin 512) :
    matmul (F := Ideal) dot_S1000x512_S512x512_S1000x512_1_0_0_1_n_n none l r (constant (F := Ideal) S1000x512 .f32 0x00000000#32) (ix2 p q)
      = ∑ k : Fin 512, l (ix2 p k) * r (ix2 k q) := by
  simp only [matmul]
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 p q) ((contrEquiv1 dot_S1000x512_S512x512_S1000x512_1_0_0_1_n_n 512 rfl rfl).symm k) = ix2 p k := funext fun a => Fin.ext (by
    match a with
    | ⟨0, _⟩ => exact dot_lhs0 _ _
    | ⟨1, _⟩ => exact (dot_lhs1 _ _).trans hk)
  have er : dot_S1000x512_S512x512_S1000x512_1_0_0_1_n_n.rhsIdx (ix2 p q) ((contrEquiv1 dot_S1000x512_S512x512_S1000x512_1_0_0_1_n_n 512 rfl rfl).symm k) = ix2 k q := funext fun a => Fin.ext (by
    match a with
    | ⟨0, _⟩ => exact (dot_rhs0 _ _).trans hk
    | ⟨1, _⟩ => exact dot_rhs1 _ _)
  rw [el, er]

/-- The bias vector read as one row and repeated down the block, at (p, q): b[q]. -/
theorem bias_row_apply (v : Vec Ideal S512 .f32) (p : Fin 1000) (q : Fin 512) :
    broadcastTo S1000x512 (shapeCast S1x512 v shapeCasts_S512_S1x512) broadcasts_S1x512_S1000x512 (ix2 p q) = v (ix1 q) :=
  (broadcastTo_1b_ab_apply _ _ p q).trans (shapeCast_a_1a_apply v _ 0 q)

/-- The first body's stored block at (p, q): both products, the bias, then max(·, 0). -/
theorem stored_relu_apply (a x : Vec Ideal S1000x512 .f32) (Wl Wr : Vec Ideal S512x512 .f32) (b : Vec Ideal S512 .f32)
    (p : Fin 1000) (q : Fin 512) :
    k0_pay1 (F := Ideal) a x Wl Wr b (ix2 p q)
      = max ((∑ k : Fin 512, a (ix2 p k) * Wl (ix2 k q) + ∑ k : Fin 512, x (ix2 p k) * Wr (ix2 k q)) + b (ix1 q))
          (Ideal.ofBits .f32 0x00000000#32) := by
  unfold k0_pay1
  simp only [maximumf_apply, addf_apply, broadcast_apply, block_dot_apply, truncf_apply, shapeCast_self]
  rw [bias_row_apply]
  rfl

/-- The second body's stored block at (p, q): both products, then the bias. -/
theorem stored_lin_apply (a x : Vec Ideal S1000x512 .f32) (Wl Wr : Vec Ideal S512x512 .f32) (b : Vec Ideal S512 .f32)
    (p : Fin 1000) (q : Fin 512) :
    k1_pay1 (F := Ideal) a x Wl Wr b (ix2 p q)
      = (∑ k : Fin 512, a (ix2 p k) * Wl (ix2 k q) + ∑ k : Fin 512, x (ix2 p k) * Wr (ix2 k q)) + b (ix1 q) := by
  unfold k1_pay1
  simp only [addf_apply, block_dot_apply, truncf_apply, shapeCast_self]
  rw [bias_row_apply]

end Cert.KernelIdeal.Sage

end
-- ==== Proof.SageLayer.lean ====
/-
  One mean-aggregating graph layer as a function of whole arrays, entry by entry, over the extended reals, and the
  two-layer result both programs are compared with.

  At entry (r, q) a layer is  (∑ₖ mean[r,k]·Wl[k,q] + ∑ₖ x[r,k]·Wr[k,q]) + b[q]  — the two matrix products added
  first and the bias row last, the order the kernel adds in. The reference adds the bias between the two products,
  (∑ₖ mean[r,k]·Wl[k,q] + b[q]) + ∑ₖ x[r,k]·Wr[k,q]; the two agree because addition of extended reals is commutative
  and associative, with no finiteness needed (`lin_regroup`). The first layer is followed by max(·, 0); its output
  feeds both the second layer's own-features product and, through the neighbour mean, its aggregated product.
-/
import proofs.«113074_j89249420410962_1_alg».proof.Proof.SegmentMean
import Idealize.ShloMosaic.Lib.ValueIdx
import Idealize.ShloMosaic.PureOps.Ideal

noncomputable section

namespace Cert.KernelIdeal.Sage

open Cert.KernelIdeal Idealize.ShloMosaic Idealize.ShloMosaic.ValueIdx

/-- The layer before its activation at row `r`, column `q`: both products, then the bias. -/
def linAt (mean x : S50000x512.Idx → EReal) (Wl Wr : S512x512.Idx → EReal) (b : S512.Idx → EReal)
    (r : Fin 50000) (q : Fin 512) : EReal :=
  (∑ k : Fin 512, mean (ix2 r k) * Wl (ix2 k q) + ∑ k : Fin 512, x (ix2 r k) * Wr (ix2 k q)) + b (ix1 q)

/-- The layer before its activation, as a whole array. -/
def lin (mean x : S50000x512.Idx → EReal) (Wl Wr : S512x512.Idx → EReal) (b : S512.Idx → EReal) :
    S50000x512.Idx → EReal :=
  fun i => linAt mean x Wl Wr b ⟨(i 0).val, (i 0).isLt⟩ ⟨(i 1).val, (i 1).isLt⟩

/-- The layer followed by max(·, 0); the zero is kept as the float word both programs print. -/
def relu (mean x : S50000x512.Idx → EReal) (Wl Wr : S512x512.Idx → EReal) (b : S512.Idx → EReal) :
    S50000x512.Idx → EReal :=
  fun i => max (lin mean x Wl Wr b i) (Ideal.ofBits .f32 0x00000000#32)

/-- Bias between the products or after them: the same extended real. -/
theorem lin_regroup (a c d : EReal) : (a + d) + c = (a + c) + d := add_right_comm a d c

/-- The hidden features: the first layer on the inputs and their neighbour mean, then max(·, 0). -/
def hidden (x : S50000x512.Idx → EReal) (ei : (⟨S2x400000, .i32⟩ : BufTy).Contents (Elt Ideal))
    (W1l : S512x512.Idx → EReal) (b1 : S512.Idx → EReal) (W1r : S512x512.Idx → EReal) : S50000x512.Idx → EReal :=
  relu (segMean (F := Ideal) x ei) x W1l W1r b1

/-- The two-layer result: the second layer on the hidden features and their neighbour mean. -/
def result (x : S50000x512.Idx → EReal) (ei : (⟨S2x400000, .i32⟩ : BufTy).Contents (Elt Ideal))
    (W1l : S512x512.Idx → EReal) (b1 : S512.Idx → EReal) (W1r W2l : S512x512.Idx → EReal) (b2 : S512.Idx → EReal)
    (W2r : S512x512.Idx → EReal) : S50000x512.Idx → EReal :=
  lin (segMean (F := Ideal) (hidden x ei W1l b1 W1r) ei) (hidden x ei W1l b1 W1r) W2l W2r b2

end Cert.KernelIdeal.Sage

end
-- ==== Proof.FirstLayerRows.lean ====
/-
  The first layer's output array after its pallas_call, for ANY contents V the call is entered with.

  The call runs 50 grid points. At point t the two feature windows hold rows 1000·t … 1000·t + 999 of their arrays,
  the weight and bias windows hold their whole arrays, and the body's stored block is written back to rows
  1000·t … 1000·t + 999 of the output. So entry (p, q) of the block written at point t is the layer's formula at row
  1000·t + p — the block is the restriction of one whole-array function — and since the 50 blocks tile all 50000
  rows (row r lies in the block of point r / 1000) the output array ends holding that function.
-/
import proofs.«113074_j89249420410962_1_alg».proof.Proof.Gen.KernelIdeal.Frame
import proofs.«113074_j89249420410962_1_alg».proof.Proof.BlockLayer
import proofs.«113074_j89249420410962_1_alg».proof.Proof.SageLayer
import Idealize.ShloMosaic.Lib.Pipeline.Value

set_option maxRecDepth 16384

noncomputable section

namespace Cert.KernelIdeal.Sage.First

open Cert.KernelIdeal Cert.KernelIdeal.Gen Cert.KernelIdeal.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the feature windows and the output move one block of rows per point and
    stay at column block 0; the weight and bias windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The aggregated-features block of point t at (p, k) is row 1000·t + p of its array. -/
theorem mean_block_apply (c : Dev nD) (t : Fin cfg0.N) (p : Fin 1000) (k : Fin 512) (r : Fin 50000)
    (hr : r.val = t.val * 1000 + p.val) :
    (iblk0 V c 0 t : Vec Ideal S1000x512 .f32) (ix2 p k) = (V c main_v22 : S50000x512.Idx → EReal) (ix2 r k) := by
  obtain ⟨e0, e1, -⟩ := idx_facts t
  unfold iblk0
  rw [View.read_apply]
  show V c main_v22 _ = V c main_v22 _
  refine congrArg _ ?_
  funext a
  apply Fin.ext
  match a with
  | ⟨0, _⟩ => show win0_0.index t 0 * 1000 + 1 * p.val = r.val; rw [e0, hr]; omega
  | ⟨1, _⟩ => show win0_0.index t 1 * 512 + 1 * k.val = k.val; rw [e1]; omega

/-- The own-features block of point t at (p, k) is row 1000·t + p of its array. -/
theorem self_block_apply (c : Dev nD) (t : Fin cfg0.N) (p : Fin 1000) (k : Fin 512) (r : Fin 50000)
    (hr : r.val = t.val * 1000 + p.val) :
    (iblk0 V c 1 t : Vec Ideal S1000x512 .f32) (ix2 p k) = (V c main_arg0 : S50000x512.Idx → EReal) (ix2 r k) := by
  obtain ⟨-, -, e0, e1, -⟩ := idx_facts t
  unfold iblk0
  rw [View.read_apply]
  show V c main_arg0 _ = V c main_arg0 _
  refine congrArg _ ?_
  funext a
  apply Fin.ext
  match a with
  | ⟨0, _⟩ => show win0_1.index t 0 * 1000 + 1 * p.val = r.val; rw [e0, hr]; omega
  | ⟨1, _⟩ => show win0_1.index t 1 * 512 + 1 * k.val = k.val; rw [e1]; omega

/-- The aggregated product's weight window holds its whole matrix at every point. -/
theorem wl_block_apply (c : Dev nD) (t : Fin cfg0.N) (k q : Fin 512) :
    (iblk0 V c 2 t : Vec Ideal S512x512 .f32) (ix2 k q) = (V c main_arg2 : S512x512.Idx → EReal) (ix2 k q) := by
  obtain ⟨-, -, -, -, e0, e1, -⟩ := idx_facts t
  unfold iblk0
  rw [View.read_apply]
  show V c main_arg2 _ = V c main_arg2 _
  refine congrArg _ ?_
  funext a
  apply Fin.ext
  match a with
  | ⟨0, _⟩ => show win0_2.index t 0 * 512 + 1 * k.val = k.val; rw [e0]; omega
  | ⟨1, _⟩ => show win0_2.index t 1 * 512 + 1 * q.val = q.val; rw [e1]; omega

/-- The own-features product's weight window holds its whole matrix at every point. -/
theorem wr_block_apply (c : Dev nD) (t : Fin cfg0.N) (k q : Fin 512) :
    (iblk0 V c 3 t : Vec Ideal S512x512 .f32) (ix2 k q) = (V c main_arg4 : S512x512.Idx → EReal) (ix2 k q) := by
  obtain ⟨-, -, -, -, -, -, e0, e1, -⟩ := idx_facts t
  unfold iblk0
  rw [View.read_apply]
  show V c main_arg4 _ = V c main_arg4 _
  refine congrArg _ ?_
  funext a
  apply Fin.ext
  match a with
  | ⟨0, _⟩ => show win0_3.index t 0 * 512 + 1 * k.val = k.val; rw [e0]; omega
  | ⟨1, _⟩ => show win0_3.index t 1 * 512 + 1 * q.val = q.val; rw [e1]; omega

/-- The bias window holds its whole vector at every point. -/
theorem bias_block_apply (c : Dev nD) (t : Fin cfg0.N) (q : Fin 512) :
    (iblk0 V c 4 t : Vec Ideal S512 .f32) (ix1 q) = (V c main_arg3 : S512.Idx → EReal) (ix1 q) := by
  obtain ⟨-, -, -, -, -, -, -, -, e0, -⟩ := idx_facts t
  unfold iblk0
  rw [View.read_apply]
  show V c main_arg3 _ = V c main_arg3 _
  refine congrArg _ ?_
  funext a
  apply Fin.ext
  match a with
  | ⟨0, _⟩ => show win0_4.index t 0 * 512 + 1 * q.val = q.val; rw [e0]; omega

/-- What point t writes back is block t of the layer's whole-array function of the arrays the call is entered with. -/
theorem flushed_eq (c : Dev nD) (t : Fin cfg0.N) :
    (dat0 V c).flushed 5 t = ((cfg0.win 5).blk t).view.read (Elt Ideal)
      (relu (V c main_v22) (V c main_arg0) (V c main_arg2) (V c main_arg4) (V c main_arg3)) := by
  show (cfg0.win 5).cut (grid0.coords t) ((dat0 V c).after 5 t) = _
  rw [after0_5]
  unfold out0_5
  rw [View.canon_unit_zero hz2]
  simp only [View.ld_unit_zero (S := S1000x512) hz2, View.ld_unit_zero (S := S512x512) hz2, View.ld_unit_zero (S := S512) hz1]
  have hN : cfg0.N = 50 := N_0
  have ht : t.val < 50 := hN ▸ t.isLt
  obtain ⟨-, -, -, -, -, -, -, -, -, e0, e1⟩ := idx_facts t
  funext j
  obtain ⟨p, q, rfl⟩ : ∃ (p : Fin 1000) (q : Fin 512), j = ix2 p q := ⟨j 0, j 1, eq_ix2 j⟩
  have hp : p.val < 1000 := p.isLt
  have hr : ((((cfg0.win 5).blk t).view.emb (ix2 p q)) 0).val = t.val * 1000 + p.val := by
    show win0_5.index t 0 * 1000 + 1 * p.val = _; rw [e0]; omega
  have hq : ((((cfg0.win 5).blk t).view.emb (ix2 p q)) 1).val = q.val := by
    show win0_5.index t 1 * 512 + 1 * q.val = _; rw [e1]; omega
  show k0_pay1 (F := Ideal) (iblk0 V c 0 t) (iblk0 V c 1 t) (iblk0 V c 2 t) (iblk0 V c 3 t) (iblk0 V c 4 t) (ix2 p q)
    = relu (V c main_v22) (V c main_arg0) (V c main_arg2) (V c main_arg4) (V c main_arg3) (((cfg0.win 5).blk t).view.emb (ix2 p q))
  refine (stored_relu_apply _ _ _ _ _ p q).trans ?_
  unfold relu lin linAt
  have hq' : (⟨((((cfg0.win 5).blk t).view.emb (ix2 p q)) 1).val, ((((cfg0.win 5).blk t).view.emb (ix2 p q)) 1).isLt⟩ : Fin 512) = q := Fin.ext hq
  rw [hq']
  refine congrArg (max · _) (congrArg₂ (· + ·) (congrArg₂ (· + ·) (Finset.sum_congr rfl fun k _ => ?_) (Finset.sum_congr rfl fun k _ => ?_)) ?_)
  · rw [mean_block_apply V c t p k _ hr, wl_block_apply V c t k q]; rfl
  · rw [self_block_apply V c t p k _ hr, wr_block_apply V c t k q]; rfl
  · exact bias_block_apply V c t q

/-- An index of the output array is in point t's block iff each coordinate is in the block's range on its axis. -/
theorem mem_blk (t : Fin cfg0.N) (i : S50000x512.Idx) :
    i ∈ ((cfg0.win 5).blk t).view.set ↔ ∀ a : Fin 2, win0_5.index t a * S1000x512.size a ≤ (i a).val ∧ (i a).val < win0_5.index t a * S1000x512.size a + S1000x512.size a := by
  show i ∈ ((View.whole main_v23).slice (win0_5.rect t)).set ↔ _
  rw [View.set_slice_whole, Rect.mem_set_unit]
  exact Iff.rfl

/-- Every row of the output lies in the block of the point r / 1000, which writes back. -/
theorem cover (i : S50000x512.Idx) : ∃ t : Fin cfg0.N, (cfg0.win 5).flush t = true ∧ i ∈ ((cfg0.win 5).blk t).view.set := by
  have hi0 : (i 0).val < 50000 := (i 0).isLt
  have hi1 : (i 1).val < 512 := (i 1).isLt
  have hN : cfg0.N = 50 := N_0
  obtain ⟨t, htv⟩ : ∃ t : Fin cfg0.N, t.val = (i 0).val / 1000 := ⟨⟨(i 0).val / 1000, by rw [hN]; omega⟩, rfl⟩
  obtain ⟨-, -, -, -, -, -, -, -, -, e0, e1⟩ := idx_facts t
  refine ⟨t, flush0_5 t, ?_⟩
  rw [mem_blk]
  intro a
  match a with
  | ⟨0, _⟩ => show win0_5.index t 0 * 1000 ≤ (i 0).val ∧ (i 0).val < win0_5.index t 0 * 1000 + 1000; rw [e0, htv]; omega
  | ⟨1, _⟩ => show win0_5.index t 1 * 512 ≤ (i 1).val ∧ (i 1).val < win0_5.index t 1 * 512 + 512; rw [e1]; omega

/-- The output array after the call: the layer followed by max(·, 0), of the arrays the call is entered with. -/
theorem array_eq (c : Dev nD) :
    (dat0 V c).arrAt 5 cfg0.N = relu (V c main_v22) (V c main_arg0) (V c main_arg2) (V c main_arg4) (V c main_arg3) :=
  (dat0 V c).arrAt_eq_of_cover 5 _ (fun t _ => flushed_eq V c t) cover

end Cert.KernelIdeal.Sage.First

end
-- ==== Proof.SecondLayerRows.lean ====
/-
  The second layer's output array after its pallas_call, for ANY contents V the call is entered with.

  The call runs 50 grid points like the first. At point t the aggregated-features window and the hidden-features
  window hold rows 1000·t … 1000·t + 999 of their arrays, the weight and bias windows hold their whole arrays, and
  the stored block — the layer's formula without an activation — is written back to the same rows of the output. The
  50 blocks tile all 50000 rows, so the output array ends holding the layer's whole-array function.
-/
import proofs.«113074_j89249420410962_1_alg».proof.Proof.Gen.KernelIdeal.Frame
import proofs.«113074_j89249420410962_1_alg».proof.Proof.BlockLayer
import proofs.«113074_j89249420410962_1_alg».proof.Proof.SageLayer
import Idealize.ShloMosaic.Lib.Pipeline.Value

set_option maxRecDepth 16384

noncomputable section

namespace Cert.KernelIdeal.Sage.Second

open Cert.KernelIdeal Cert.KernelIdeal.Gen Cert.KernelIdeal.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the feature windows and the output move one block of rows per point and
    stay at column block 0; the weight and bias windows stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The aggregated-features block of point t at (p, k) is row 1000·t + p of its array. -/
theorem mean_block_apply (c : Dev nD) (t : Fin cfg1.N) (p : Fin 1000) (k : Fin 512) (r : Fin 50000)
    (hr : r.val = t.val * 1000 + p.val) :
    (iblk1 V c 0 t : Vec Ideal S1000x512 .f32) (ix2 p k) = (V c main_v42 : S50000x512.Idx → EReal) (ix2 r k) := by
  obtain ⟨e0, e1, -⟩ := idx_facts t
  unfold iblk1
  rw [View.read_apply]
  show V c main_v42 _ = V c main_v42 _
  refine congrArg _ ?_
  funext a
  apply Fin.ext
  match a with
  | ⟨0, _⟩ => show win1_0.index t 0 * 1000 + 1 * p.val = r.val; rw [e0, hr]; omega
  | ⟨1, _⟩ => show win1_0.index t 1 * 512 + 1 * k.val = k.val; rw [e1]; omega

/-- The hidden-features block of point t at (p, k) is row 1000·t + p of its array. -/
theorem self_block_apply (c : Dev nD) (t : Fin cfg1.N) (p : Fin 1000) (k : Fin 512) (r : Fin 50000)
    (hr : r.val = t.val * 1000 + p.val) :
    (iblk1 V c 1 t : Vec Ideal S1000x512 .f32) (ix2 p k) = (V c main_v23 : S50000x512.Idx → EReal) (ix2 r k) := by
  obtain ⟨-, -, e0, e1, -⟩ := idx_facts t
  unfold iblk1
  rw [View.read_apply]
  show V c main_v23 _ = V c main_v23 _
  refine congrArg _ ?_
  funext a
  apply Fin.ext
  match a with
  | ⟨0, _⟩ => show win1_1.index t 0 * 1000 + 1 * p.val = r.val; rw [e0, hr]; omega
  | ⟨1, _⟩ => show win1_1.index t 1 * 512 + 1 * k.val = k.val; rw [e1]; omega

/-- The aggregated product's weight window holds its whole matrix at every point. -/
theorem wl_block_apply (c : Dev nD) (t : Fin cfg1.N) (k q : Fin 512) :
    (iblk1 V c 2 t : Vec Ideal S512x512 .f32) (ix2 k q) = (V c main_arg5 : S512x512.Idx → EReal) (ix2 k q) := by
  obtain ⟨-, -, -, -, e0, e1, -⟩ := idx_facts t
  unfold iblk1
  rw [View.read_apply]
  show V c main_arg5 _ = V c main_arg5 _
  refine congrArg _ ?_
  funext a
  apply Fin.ext
  match a with
  | ⟨0, _⟩ => show win1_2.index t 0 * 512 + 1 * k.val = k.val; rw [e0]; omega
  | ⟨1, _⟩ => show win1_2.index t 1 * 512 + 1 * q.val = q.val; rw [e1]; omega

/-- The own-features product's weight window holds its whole matrix at every point. -/
theorem wr_block_apply (c : Dev nD) (t : Fin cfg1.N) (k q : Fin 512) :
    (iblk1 V c 3 t : Vec Ideal S512x512 .f32) (ix2 k q) = (V c main_arg7 : S512x512.Idx → EReal) (ix2 k q) := by
  obtain ⟨-, -, -, -, -, -, e0, e1, -⟩ := idx_facts t
  unfold iblk1
  rw [View.read_apply]
  show V c main_arg7 _ = V c main_arg7 _
  refine congrArg _ ?_
  funext a
  apply Fin.ext
  match a with
  | ⟨0, _⟩ => show win1_3.index t 0 * 512 + 1 * k.val = k.val; rw [e0]; omega
  | ⟨1, _⟩ => show win1_3.index t 1 * 512 + 1 * q.val = q.val; rw [e1]; omega

/-- The bias window holds its whole vector at every point. -/
theorem bias_block_apply (c : Dev nD) (t : Fin cfg1.N) (q : Fin 512) :
    (iblk1 V c 4 t : Vec Ideal S512 .f32) (ix1 q) = (V c main_arg6 : S512.Idx → EReal) (ix1 q) := by
  obtain ⟨-, -, -, -, -, -, -, -, e0, -⟩ := idx_facts t
  unfold iblk1
  rw [View.read_apply]
  show V c main_arg6 _ = V c main_arg6 _
  refine congrArg _ ?_
  funext a
  apply Fin.ext
  match a with
  | ⟨0, _⟩ => show win1_4.index t 0 * 512 + 1 * q.val = q.val; rw [e0]; omega

/-- What point t writes back is block t of the layer's whole-array function of the arrays the call is entered with. -/
theorem flushed_eq (c : Dev nD) (t : Fin cfg1.N) :
    (dat1 V c).flushed 5 t = ((cfg1.win 5).blk t).view.read (Elt Ideal)
      (lin (V c main_v42) (V c main_v23) (V c main_arg5) (V c main_arg7) (V c main_arg6)) := by
  show (cfg1.win 5).cut (grid1.coords t) ((dat1 V c).after 5 t) = _
  rw [after1_5]
  unfold out1_5
  rw [View.canon_unit_zero hz2]
  simp only [View.ld_unit_zero (S := S1000x512) hz2, View.ld_unit_zero (S := S512x512) hz2, View.ld_unit_zero (S := S512) hz1]
  have hN : cfg1.N = 50 := N_1
  have ht : t.val < 50 := hN ▸ t.isLt
  obtain ⟨-, -, -, -, -, -, -, -, -, e0, e1⟩ := idx_facts t
  funext j
  obtain ⟨p, q, rfl⟩ : ∃ (p : Fin 1000) (q : Fin 512), j = ix2 p q := ⟨j 0, j 1, eq_ix2 j⟩
  have hp : p.val < 1000 := p.isLt
  have hr : ((((cfg1.win 5).blk t).view.emb (ix2 p q)) 0).val = t.val * 1000 + p.val := by
    show win1_5.index t 0 * 1000 + 1 * p.val = _; rw [e0]; omega
  have hq : ((((cfg1.win 5).blk t).view.emb (ix2 p q)) 1).val = q.val := by
    show win1_5.index t 1 * 512 + 1 * q.val = _; rw [e1]; omega
  show k1_pay1 (F := Ideal) (iblk1 V c 0 t) (iblk1 V c 1 t) (iblk1 V c 2 t) (iblk1 V c 3 t) (iblk1 V c 4 t) (ix2 p q)
    = lin (V c main_v42) (V c main_v23) (V c main_arg5) (V c main_arg7) (V c main_arg6) (((cfg1.win 5).blk t).view.emb (ix2 p q))
  refine (stored_lin_apply _ _ _ _ _ p q).trans ?_
  unfold lin linAt
  have hq' : (⟨((((cfg1.win 5).blk t).view.emb (ix2 p q)) 1).val, ((((cfg1.win 5).blk t).view.emb (ix2 p q)) 1).isLt⟩ : Fin 512) = q := Fin.ext hq
  rw [hq']
  refine congrArg₂ (· + ·) (congrArg₂ (· + ·) (Finset.sum_congr rfl fun k _ => ?_) (Finset.sum_congr rfl fun k _ => ?_)) ?_
  · rw [mean_block_apply V c t p k _ hr, wl_block_apply V c t k q]; rfl
  · rw [self_block_apply V c t p k _ hr, wr_block_apply V c t k q]; rfl
  · exact bias_block_apply V c t q

/-- An index of the output array is in point t's block iff each coordinate is in the block's range on its axis. -/
theorem mem_blk (t : Fin cfg1.N) (i : S50000x512.Idx) :
    i ∈ ((cfg1.win 5).blk t).view.set ↔ ∀ a : Fin 2, win1_5.index t a * S1000x512.size a ≤ (i a).val ∧ (i a).val < win1_5.index t a * S1000x512.size a + S1000x512.size a := by
  show i ∈ ((View.whole main_v43).slice (win1_5.rect t)).set ↔ _
  rw [View.set_slice_whole, Rect.mem_set_unit]
  exact Iff.rfl

/-- Every row of the output lies in the block of the point r / 1000, which writes back. -/
theorem cover (i : S50000x512.Idx) : ∃ t : Fin cfg1.N, (cfg1.win 5).flush t = true ∧ i ∈ ((cfg1.win 5).blk t).view.set := by
  have hi0 : (i 0).val < 50000 := (i 0).isLt
  have hi1 : (i 1).val < 512 := (i 1).isLt
  have hN : cfg1.N = 50 := N_1
  obtain ⟨t, htv⟩ : ∃ t : Fin cfg1.N, t.val = (i 0).val / 1000 := ⟨⟨(i 0).val / 1000, by rw [hN]; omega⟩, rfl⟩
  obtain ⟨-, -, -, -, -, -, -, -, -, e0, e1⟩ := idx_facts t
  refine ⟨t, flush1_5 t, ?_⟩
  rw [mem_blk]
  intro a
  match a with
  | ⟨0, _⟩ => show win1_5.index t 0 * 1000 ≤ (i 0).val ∧ (i 0).val < win1_5.index t 0 * 1000 + 1000; rw [e0, htv]; omega
  | ⟨1, _⟩ => show win1_5.index t 1 * 512 ≤ (i 1).val ∧ (i 1).val < win1_5.index t 1 * 512 + 512; rw [e1]; omega

/-- The output array after the call: the layer, without an activation, of the arrays the call is entered with. -/
theorem array_eq (c : Dev nD) :
    (dat1 V c).arrAt 5 cfg1.N = lin (V c main_v42) (V c main_v23) (V c main_arg5) (V c main_arg7) (V c main_arg6) :=
  (dat1 V c).arrAt_eq_of_cover 5 _ (fun t _ => flushed_eq V c t) cover

end Cert.KernelIdeal.Sage.Second

end
-- ==== Proof.KernelResult.lean ====
/-
  The idealized kernel program's result buffer after the run is the two-layer result of its launch contents.

  Read backwards from the last boundary: the result buffer is the second call's output array, which is the second
  layer (no activation) of the arrays that call is entered with — the neighbour mean of the first call's output,
  that output itself, and the second layer's weights and bias as launched. The first call's output array is the
  first layer followed by max(·, 0) of the arrays IT is entered with — the neighbour mean of the input features, the
  input features, and the first layer's weights and bias as launched.
-/
import proofs.«113074_j89249420410962_1_alg».proof.Proof.BoundaryRun
import proofs.«113074_j89249420410962_1_alg».proof.Proof.HostStages
import proofs.«113074_j89249420410962_1_alg».proof.Proof.FirstLayerRows
import proofs.«113074_j89249420410962_1_alg».proof.Proof.SecondLayerRows

set_option maxRecDepth 16384

noncomputable section

namespace Cert.KernelIdeal.Sage

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first call its output array holds the hidden features of the launch contents. -/
theorem hidden_array (c : Dev nD) :
    W2 m ρ c (Proc.devRef .tc main_v23) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (exit1_out m ρ c).trans ((First.array_eq (V1 m ρ) c).trans ?_)
  rw [entry1_mean m ρ c, entry1_x m ρ c, entry1_wl m ρ c, entry1_wr m ρ c, entry1_b m ρ c]
  rfl

/-- After the second call the result buffer holds the two-layer result of the launch contents. -/
theorem result_array (c : Dev nD) :
    W4 m ρ c (Proc.devRef .tc main_v43) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ((Second.array_eq (V3 m ρ) c).trans ?_)
  rw [entry2_mean m ρ c, entry2_h m ρ c, entry2_wl m ρ c, entry2_wr m ρ c, entry2_b m ρ c,
    exit1_src m ρ c, exit1_dst m ρ c, exit1_wl m ρ c, exit1_wr m ρ c, exit1_b m ρ c, hidden_array m ρ c]
  rfl

/-- The run, read: the result buffer at the two-layer result of the launch contents, the arguments unchanged. -/
theorem run : θ_run defs (onTc (τ := τ) (main (F := Ideal))) ⟨m, fun _ => 0, ρ⟩ (fun r => ∀ c : Dev nD,
      r.2.mem ((c.tc : Thread nD τ).loc main_v43) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_array m ρ c), (h c).2⟩) (run_boundary (F := Ideal) m ρ)

end Cert.KernelIdeal.Sage

end
-- ==== Proof.ReferenceResult.lean ====
/-
  The reference program's result, entry by entry, is the two-layer result the kernel program is compared with.

  The reference computes each layer as (mean·Wl + b) + x·Wr — the bias row added between the two matrix products —
  where the kernel's formula adds both products first and the bias last; on the extended reals the two are equal by
  commutativity and associativity of addition alone. Its two neighbour means are the same host operations the
  kernel program applies, so each is the shared function of the features and the edge list; its max(·, 0) after the
  first layer compares with the same zero word.
-/
import proofs.«113074_j89249420410962_1_alg».proof.Proof.Gen.ReferenceIdeal.Read
import proofs.«113074_j89249420410962_1_alg».proof.Proof.SageLayer

set_option maxRecDepth 16384

noncomputable section

namespace Cert.ReferenceIdeal.Sage

open Cert.ReferenceIdeal Cert.ReferenceIdeal.Read Idealize.ShloMosaic Idealize.ShloMosaic.ValueIdx

/-- The reference's first neighbour mean is the shared function of the features and the edge list. -/
theorem mean1_eq (x0 : (⟨S50000x512, .f32⟩ : BufTy).Contents (Elt Ideal)) (x1 : (⟨S2x400000, .i32⟩ : BufTy).Contents (Elt Ideal)) :
    val_main_v22 (F := Ideal) x0 x1 = Cert.KernelIdeal.Sage.segMean (F := Ideal) x0 x1 := rfl

/-- Its second neighbour mean is the same function of the hidden features, along the same edges. -/
theorem mean2_eq (x0 : (⟨S50000x512, .f32⟩ : BufTy).Contents (Elt Ideal)) (x1 : (⟨S2x400000, .i32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) :
    val_main_v48 (F := Ideal) x0 x1 x2 x3 x4 = Cert.KernelIdeal.Sage.segMean (F := Ideal) (val_main_v29 (F := Ideal) x0 x1 x2 x3 x4) x1 := by
  unfold val_main_v48 val_main_v39 val_main_v36
  generalize val_main_v29 (F := Ideal) x0 x1 x2 x3 x4 = h
  rfl

/-- The four index maps of a [50000, 512] × [512, 512] product and the two of a bias row, by coordinates. -/
theorem lrow (i : S50000x512.Idx) (k : Fin 512) (l : S50000x512.Idx) (h0 : (l 0).val = (i 0).val) (h1 : (l 1).val = k.val) :
    l = ix2 (⟨(i 0).val, (i 0).isLt⟩ : Fin 50000) k :=
  funext fun a => Fin.ext (by match a with | ⟨0, _⟩ => exact h0 | ⟨1, _⟩ => exact h1)
theorem rcol (i : S50000x512.Idx) (k : Fin 512) (l : S512x512.Idx) (h0 : (l 0).val = k.val) (h1 : (l 1).val = (i 1).val) :
    l = ix2 k (⟨(i 1).val, (i 1).isLt⟩ : Fin 512) :=
  funext fun a => Fin.ext (by match a with | ⟨0, _⟩ => exact h0 | ⟨1, _⟩ => exact h1)
theorem bcol (i : S50000x512.Idx) (l : S512.Idx) (h0 : (l 0).val = (i 1).val) :
    l = ix1 (⟨(i 1).val, (i 1).isLt⟩ : Fin 512) :=
  funext fun a => Fin.ext (by match a with | ⟨0, _⟩ => exact h0)

/-- The reference's hidden features are the first layer followed by max(·, 0). -/
theorem hidden_eq (x0 : (⟨S50000x512, .f32⟩ : BufTy).Contents (Elt Ideal)) (x1 : (⟨S2x400000, .i32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) :
    val_main_v29 (F := Ideal) x0 x1 x2 x3 x4 = Cert.KernelIdeal.Sage.hidden x0 x1 x2 x3 x4 := by
  funext i
  rw [val_main_v29_apply, val_main_v28_apply, val_main_v26_apply, val_main_v23_apply, val_main_v27_apply, val_main_v25_apply,
    val_main_v24_apply, val_main_call0_v0_apply, val_main_call0_cst_apply, mean1_eq]
  unfold Cert.KernelIdeal.Sage.hidden Cert.KernelIdeal.Sage.relu Cert.KernelIdeal.Sage.lin Cert.KernelIdeal.Sage.linAt
  simp only [Ideal.maximumf_def, Ideal.addf_def, Ideal.ofBits_def]
  have e1 : ∀ k : Fin 512, lidx_main_v23 i k = ix2 (⟨(i 0).val, (i 0).isLt⟩ : Fin 50000) k := fun k => lrow i k _ rfl rfl
  have e2 : ∀ k : Fin 512, ridx_main_v23 i k = ix2 k (⟨(i 1).val, (i 1).isLt⟩ : Fin 512) := fun k => rcol i k _ rfl rfl
  have e3 : ∀ k : Fin 512, lidx_main_v27 i k = ix2 (⟨(i 0).val, (i 0).isLt⟩ : Fin 50000) k := fun k => lrow i k _ rfl rfl
  have e4 : ∀ k : Fin 512, ridx_main_v27 i k = ix2 k (⟨(i 1).val, (i 1).isLt⟩ : Fin 512) := fun k => rcol i k _ rfl rfl
  have e5 : idx_main_v24 (idx_main_v25 i) = ix1 (⟨(i 1).val, (i 1).isLt⟩ : Fin 512) := bcol i _ rfl
  simp only [e1, e2, e3, e4, e5]
  rw [Cert.KernelIdeal.Sage.lin_regroup]

/-- The reference's result is the two-layer result. -/
theorem result_eq (x0 : (⟨S50000x512, .f32⟩ : BufTy).Contents (Elt Ideal)) (x1 : (⟨S2x400000, .i32⟩ : BufTy).Contents (Elt Ideal))
    (x2 : (⟨S512x512, .f32⟩ : BufTy).Contents (Elt Ideal)) (x3 : (⟨S512, .f32⟩ : BufTy).Contents (Elt Ideal))
    (x4 x5 : (⟨S512x512, .f32⟩ : BufTy).Contents (Elt Ideal)) (x6 : (⟨S512, .f32⟩ : BufTy).Contents (Elt Ideal))
    (x7 : (⟨S512x512, .f32⟩ : BufTy).Contents (Elt Ideal)) :
    val_main_v54 (F := Ideal) x0 x1 x2 x3 x4 x5 x6 x7 = Cert.KernelIdeal.Sage.result x0 x1 x2 x3 x4 x5 x6 x7 := by
  funext i
  rw [val_main_v54_apply, val_main_v52_apply, val_main_v49_apply, val_main_v53_apply, val_main_v51_apply, val_main_v50_apply,
    mean2_eq, hidden_eq]
  unfold Cert.KernelIdeal.Sage.result Cert.KernelIdeal.Sage.lin Cert.KernelIdeal.Sage.linAt
  simp only [Ideal.addf_def]
  have e1 : ∀ k : Fin 512, lidx_main_v49 i k = ix2 (⟨(i 0).val, (i 0).isLt⟩ : Fin 50000) k := fun k => lrow i k _ rfl rfl
  have e2 : ∀ k : Fin 512, ridx_main_v49 i k = ix2 k (⟨(i 1).val, (i 1).isLt⟩ : Fin 512) := fun k => rcol i k _ rfl rfl
  have e3 : ∀ k : Fin 512, lidx_main_v53 i k = ix2 (⟨(i 0).val, (i 0).isLt⟩ : Fin 50000) k := fun k => lrow i k _ rfl rfl
  have e4 : ∀ k : Fin 512, ridx_main_v53 i k = ix2 k (⟨(i 1).val, (i 1).isLt⟩ : Fin 512) := fun k => rcol i k _ rfl rfl
  have e5 : idx_main_v50 (idx_main_v51 i) = ix1 (⟨(i 1).val, (i 1).isLt⟩ : Fin 512) := bcol i _ rfl
  simp only [e1, e2, e3, e4, e5]
  rw [Cert.KernelIdeal.Sage.lin_regroup]

end Cert.ReferenceIdeal.Sage

end
-- ==== Proof.lean ====
/-
  A two-layer mean-aggregating graph network: the Pallas kernel program against its jnp reference, as extended reals.

  Both programs compute, for node features x [50000, 512] and an edge list [2, 400000],

      h   = max( mean(x)·W1l + x·W1r + b1 , 0 )
      out =      mean(h)·W2l + h·W2r + b2

  where mean(·) is the neighbour mean along the edges (a gather of source rows, a scatter-add onto target rows, a
  division by max(count, 1)), computed on the host by the same operations in both programs. The kernel program
  computes each linear layer in a pallas_call tiled over blocks of 1000 rows, adding the two matrix products first
  and the bias last; the reference adds the bias between the products. The two results are equal entry by entry
  because addition of extended reals is commutative and associative — the precondition is not needed for that.

  The modules: SegmentMean (the shared neighbour mean as one function), SageLayer (the layer's formula and the
  two-layer result), BlockLayer (what a kernel body stores at a block entry), FirstLayerRows / SecondLayerRows
  (each call's output array from its blocks), HostStages (what each call is entered with), BoundaryRun (the kernel
  program's run with the result kept), KernelResult (the kernel program's result is the two-layer result),
  ReferenceResult (so is the reference's). The three frames are the generated frame runs; the idealization
  rewrote no operation, so there is nothing to preserve.
-/
import proofs.«113074_j89249420410962_1_alg».proof.Defs
import proofs.«113074_j89249420410962_1_alg».proof.Proof.Gen.Kernel
import proofs.«113074_j89249420410962_1_alg».proof.Proof.Gen.Kernel.Skeleton
import proofs.«113074_j89249420410962_1_alg».proof.Proof.Gen.Kernel.Launch
import proofs.«113074_j89249420410962_1_alg».proof.Proof.Gen.Kernel.Points
import proofs.«113074_j89249420410962_1_alg».proof.Proof.Gen.Kernel.Frame
import proofs.«113074_j89249420410962_1_alg».proof.Proof.Gen.KernelIdeal
import proofs.«113074_j89249420410962_1_alg».proof.Proof.Gen.KernelIdeal.Skeleton
import proofs.«113074_j89249420410962_1_alg».proof.Proof.Gen.KernelIdeal.Launch
import proofs.«113074_j89249420410962_1_alg».proof.Proof.Gen.KernelIdeal.Points
import proofs.«113074_j89249420410962_1_alg».proof.Proof.Gen.KernelIdeal.Frame
import proofs.«113074_j89249420410962_1_alg».proof.Proof.Gen.ReferenceIdeal
import proofs.«113074_j89249420410962_1_alg».proof.Proof.Gen.ReferenceIdeal.Run
import proofs.«113074_j89249420410962_1_alg».proof.Proof.Gen.ReferenceIdeal.Read
import proofs.«113074_j89249420410962_1_alg».proof.Proof.Gen.Pre_finite_inputs
import proofs.«113074_j89249420410962_1_alg».proof.Proof.KernelResult
import proofs.«113074_j89249420410962_1_alg».proof.Proof.ReferenceResult
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The idealized reference is a host program: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end at the two-layer result of those arguments. -/
theorem algebraic : Cert.algebraic_KernelIdeal_ReferenceIdeal := by
  intro m ρ m' ρ' _ hagree
  refine ⟨fun c => Cert.KernelIdeal.Sage.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Sage.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.ReferenceIdeal.Sage.result_eq]
  obtain ⟨a0, a1, a2, a3, a4, a5, a6, a7⟩ := hagree c
  rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
